-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x16 : Shape := ⟨2, ![1000, 16]⟩
abbrev S_ : Shape := ⟨0, ![]⟩

class Facts : Prop where
  bcast_S_S1000x16 : S_.BroadcastsInDim S1000x16 (![] : Fin 0 → Fin S1000x16.rank)
  reducesTo_S1000x16_S_d0_1 : S1000x16.ReducesTo [0, 1] S_
  h_S_ : 0 < S_.numel

variable [Facts]

def fn {F : FTy → Type} [FloatOps F] (main_arg0 : IVec S16384x1000 32) (main_arg1 : FVec F S1000x16 .f32) : IVec S_ 1 :=
  let main_v0 : FVec F S1000x16 .f32 := Host.absf main_arg1
  let main_cst : FVec F S_ .f32 := constant S_ .f32 0x7F800000#32
  let main_v1 : FVec F S1000x16 .f32 := broadcastInDim S1000x16 ![] bcast_S_S1000x16 main_cst
  let main_v2 : IVec S1000x16 1 := cmpf .olt main_v0 main_v1
  let main_c : IVec S_ 1 := constantI S_ 1 1#1
  let main_v3 : IVec S_ 1 := (fun x v => Host.reduce IntOp.andi x v reducesTo_S1000x16_S_d0_1 h_S_) main_v2 main_c
  main_v3
-- ==== Kernel.lean ====
abbrev S16384x1000 : Shape := ⟨2, ![16384, 1000]⟩
abbrev S1000x16 : Shape := ⟨2, ![1000, 16]⟩
abbrev S1000x16384 : Shape := ⟨2, ![1000, 16384]⟩
abbrev S16x1000 : Shape := ⟨2, ![16, 1000]⟩
abbrev S16x16383 : Shape := ⟨2, ![16, 16383]⟩
abbrev S1000x2048 : Shape := ⟨2, ![1000, 2048]⟩
abbrev S16x1024 : Shape := ⟨2, ![16, 1024]⟩
abbrev S16x1 : Shape := ⟨2, ![16, 1]⟩
abbrev S1000x1024 : Shape := ⟨2, ![1000, 1024]⟩
abbrev S16x1023 : Shape := ⟨2, ![16, 1023]⟩
abbrev S16383x16 : Shape := ⟨2, ![16383, 16]⟩

abbrev nBuf : Space → Nat
  | .hbm => 6
  | .vmem => 7
  | .smem => 0
  | _ => 0

abbrev bufTy : (tb : Table) → Fin (tcTables nBuf tb) → BufTy
  | .hbm, ⟨0, _⟩ => ⟨S16384x1000, .i32⟩
  | .hbm, ⟨1, _⟩ => ⟨S1000x16, .f32⟩
  | .hbm, ⟨2, _⟩ => ⟨S1000x16384, .i32⟩
  | .hbm, ⟨3, _⟩ => ⟨S16x1000, .f32⟩
  | .hbm, ⟨4, _⟩ => ⟨S16x16383, .f32⟩
  | .hbm, ⟨5, _⟩ => ⟨S16383x16, .f32⟩
  | .local _ .vmem, ⟨0, _⟩ => ⟨S1000x2048, .i32⟩
  | .local _ .vmem, ⟨1, _⟩ => ⟨S1000x2048, .i32⟩
  | .local _ .vmem, ⟨2, _⟩ => ⟨S16x1000, .f32⟩
  | .local _ .vmem, ⟨3, _⟩ => ⟨S16x1024, .f32⟩
  | .local _ .vmem, ⟨4, _⟩ => ⟨S16x1024, .f32⟩
  | .local _ .vmem, ⟨5, _⟩ => ⟨S1000x16, .f32⟩
  | .local _ .vmem, ⟨6, _⟩ => ⟨S16x1, .f32⟩
  | _, _ => ⟨S16384x1000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let c0 : Index := 0#32
  let c1_i32 : BitVec 32 := 1#32
  let arg1 : BitVec 32 := BitVec.ofNat 32 (i 1).val
  let v5 : BitVec 32 := Scalar.subi c1_i32 arg1
  let c1024_i32 : BitVec 32 := 1024#32
  let v6 : BitVec 32 := Scalar.muli v5 c1024_i32
  let v7 : Index := Scalar.indexCast v6
  ![0, v7.toNat]
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg0
  let c2_i32 : BitVec 32 := 2#32
  let v1 : BitVec 32 := Scalar.muli v0 c2_i32
  let c1_i32 : BitVec 32 := 1#32
  let v2 : BitVec 32 := Scalar.addi v1 c1_i32
  let v3 : BitVec 32 := Scalar.subi v2 arg1
  let c0_i32 : BitVec 32 := 0#32
  let c0_i32_0 : BitVec 32 := 0#32
  ![c0_i32.toNat, v3.toNat]

abbrev stage0_0 : Fin 2 → Memref sig .tc .vmem S1000x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S16384x1000_S1000x16384_1_0 : S16384x1000.Transposes [1, 0] S1000x16384
  transposes_S1000x16_S16x1000_1_0 : S1000x16.Transposes [1, 0] S16x1000
  inb_S16x1000_S16x1000_0_0 : ∀ a, (![0, 0] : Fin 2 → Nat) a + S16x1000.size a ≤ S16x1000.size a
  h_S16x1000 : 0 < S16x1000.numel
  shapeCasts_S16x1000_S16x1000 : S16x1000.ShapeCasts S16x1000
  transposes_S16x1000_p1_0_S1000x16 : S16x1000.Transposes [1, 0] S1000x16
  inb_S1000x16_S1000x16_0_0 : ∀ a, (![0, 0] : Fin 2 → Nat) a + S1000x16.size a ≤ S1000x16.size a
  h_S1000x16 : 0 < S1000x16.numel
  shapeCasts_S1000x16_S1000x16 : S1000x16.ShapeCasts S1000x16
  h_S1000x1024 : 0 < S1000x1024.numel
  shapeCasts_S1000x1024_S1000x1024 : S1000x1024.ShapeCasts S1000x1024
  inb_S16x1_S16x1_0_0 : ∀ a, (![0, 0] : Fin 2 → Nat) a + S16x1.size a ≤ S16x1.size a
  h_S16x1 : 0 < S16x1.numel
  slices_S16x1024_o0_1_S16x1023 : S16x1024.Slices ![0, 1] S16x1023
  concatenates_S16x1023_S16x1_S16x1024_d1 : Shape.Concatenates [S16x1023, S16x1] S16x1024 1
  inb_S16x1024_S16x1024_0_0 : ∀ a, (![0, 0] : Fin 2 → Nat) a + S16x1024.size a ≤ S16x1024.size a
  h_S16x1024 : 0 < S16x1024.numel
  slices_S16x1024_o0_0_S16x1 : S16x1024.Slices ![0, 0] S16x1
  shapeCasts_S16x1_S16x1 : S16x1.ShapeCasts S16x1
  transposes_S16x16383_S16383x16_1_0 : S16x16383.Transposes [1, 0] S16383x16
  dot_S1000x16_S1000x1024_S16x1024_0_0_1_1_n_n_wf : DotDims.WF S1000x16 S1000x1024 S16x1024 [0] [0] [1] [1] [] []
  hrank0 : 0 < grid0.rank
  k0_off1_inb : ∀ i : grid0.Coords, ∀ a, (k0_off1 i) a + S1000x1024.size a ≤ S1000x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S1000x16384.size a
  hwx0_0 : ∀ i : grid0.Coords, EltTy.bits .i32 = 32 ∨ (Rect.block (s := S1000x16384) S1000x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1000.size a ≤ S16x1000.size a
  hwx0_1 : ∀ i : grid0.Coords, EltTy.bits .f32 = 32 ∨ (Rect.block (s := S16x1000) S16x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16x1024.size a < S16x16383.size a
  hwx0_2 : ∀ i : grid0.Coords, EltTy.bits .f32 = 32 ∨ (Rect.unit (s := S16x16383) (fun a => cc0_transform_2 i a * S16x1024.size a) (fun a => (Pipeline.Clip.of (cc0_transform_2 i a) (S16x1024.size a) (S16x16383.size a)).extent (S16x1024.size a)) fun a => Pipeline.Clip.inb (Pipeline.Clip.ok_of (hstart0_2 i a))).WholeWords (EltTy.packing .f32)
  hwxs0_2 : ∀ i : grid0.Coords, EltTy.bits .f32 = 32 ∨ (Rect.unit (s := S16x1024) (fun _ => 0) (fun a => (Pipeline.Clip.of (cc0_transform_2 i a) (S16x1024.size a) (S16x16383.size a)).extent (S16x1024.size a)) fun a => (Nat.zero_add _).trans_le (Pipeline.Clip.extent_le (Pipeline.Clip.ok_of (hstart0_2 i a)))).WholeWords (EltTy.packing .f32)

variable [Facts₀]

def dot_S1000x16_S1000x1024_S16x1024_0_0_1_1_n_n : DotDims S1000x16 S1000x1024 S16x1024 where
  lhsContracting := [0]
  rhsContracting := [0]
  lhsNonContracting := [1]
  rhsNonContracting := [1]
  lhsBatch := []
  rhsBatch := []
  wf := dot_S1000x16_S1000x1024_S16x1024_0_0_1_1_n_n_wf

abbrev win0_0 : Pipeline.Window sig grid0 :=
  Pipeline.Window.ofSpec (Memref.whole main_v0) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v2) S16x1024.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x16 : Shape := ⟨2, ![1000, 16]⟩
abbrev S16383x1000 : Shape := ⟨2, ![16383, 1000]⟩
abbrev S16383x16 : Shape := ⟨2, ![16383, 16]⟩

abbrev nBuf : Space → Nat
  | .hbm => 5
  | .vmem => 0
  | .smem => 0
  | _ => 0

abbrev bufTy : (tb : Table) → Fin (tcTables nBuf tb) → BufTy
  | .hbm, ⟨0, _⟩ => ⟨S16384x1000, .i32⟩
  | .hbm, ⟨1, _⟩ => ⟨S1000x16, .f32⟩
  | .hbm, ⟨2, _⟩ => ⟨S16384x1000, .f32⟩
  | .hbm, ⟨3, _⟩ => ⟨S16383x1000, .f32⟩
  | .hbm, ⟨4, _⟩ => ⟨S16383x16, .f32⟩
  | _, _ => ⟨S16384x1000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  slices_S16384x1000_S16383x1000_1_0 : S16384x1000.Slices ![1, 0] S16383x1000
  dot_S16383x1000_S1000x16_S16383x16_1_0_0_1_n_n_wf : DotDims.WF S16383x1000 S1000x16 S16383x16 [1] [0] [0] [1] [] []

variable [Facts₀]

def dot_S16383x1000_S1000x16_S16383x16_1_0_0_1_n_n : DotDims S16383x1000 S1000x16 S16383x16 where
  lhsContracting := [1]
  rhsContracting := [0]
  lhsNonContracting := [0]
  rhsNonContracting := [1]
  lhsBatch := []
  rhsBatch := []
  wf := dot_S16383x1000_S1000x16_S16383x16_1_0_0_1_n_n_wf

class Facts : Prop extends Facts₀ where

variable [Facts]
-- ==== Proof.Bits.StepShape.lean ====
/-
  The shape of one grid step of the kernel, at any reading of the floats.

  The grid is 8 × 2 points `(i, h)`, walked in order, and the body branches once, on `i = 0 ∧ h = 0`:
  true at the first point only. Every access of the body is a whole buffer, except the read of the streamed
  block, which takes the half of 1024 columns starting at column `(1 - h) · 1024`. A store of a whole
  buffer covers it, so what the buffer then reads is the stored value.
-/
import proofs.«114631_g5153960755898_cont_9to1_m_245_26_alg».proof.Proof.Gen.Kernel.Frame
import proofs.«114631_g5153960755898_cont_9to1_m_245_26_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's condition `i = 0 ∧ h = 0`, as the body computes it from the grid coordinates. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first of the sixteen points and at no other. -/
theorem hcond0 : ∀ t : Fin cfg0.N, cond0 (grid0.coords t) ↔ t.val = 0 :=
  (by decide +kernel : ∀ t : Fin grid0.N, cond0 (grid0.coords t) ↔ t.val = 0)

/-- The half of the streamed block read at a point: all 1000 rows, 1024 columns from column `(1 - h) · 1024`. -/
abbrev rX (i : grid0.Coords) : Rect S1000x2048 := Rect.unit (s := S1000x2048) (k0_off1 i) S1000x1024.size (k0_off1_inb i)

/-- The zero offsets, as a constant function. -/
theorem hz2 : (![0, 0] : Fin 2 → Nat) = fun _ => 0 := funext fun a => by fin_cases a <;> rfl

/-- One store of the whole 16 × 1024 buffer covers it. -/
theorem coverOut (w : Vec F S16x1024 .f32) (y : S16x1024.Idx) :
    ∃ pc ∈ ([⟨Rect.unit (s := S16x1024) ![0, 0] S16x1024.size inb_S16x1024_S16x1024_0_0, w⟩] : List (View.Piece (Elt F) S16x1024 .f32)), y ∈ pc.1.set :=
  ⟨_, List.mem_singleton_self _, View.mem_set_unit_zero hz2 inb_S16x1024_S16x1024_0_0 y⟩

/-- One store of the whole 1000 × 16 buffer covers it. -/
theorem coverTab (w : Vec F S1000x16 .f32) (y : S1000x16.Idx) :
    ∃ pc ∈ ([⟨Rect.unit (s := S1000x16) ![0, 0] S1000x16.size inb_S1000x16_S1000x16_0_0, w⟩] : List (View.Piece (Elt F) S1000x16 .f32)), y ∈ pc.1.set :=
  ⟨_, List.mem_singleton_self _, View.mem_set_unit_zero hz2 inb_S1000x16_S1000x16_0_0 y⟩

/-- One store of the whole 16 × 1 buffer covers it. -/
theorem coverCol (w : Vec F S16x1 .f32) (y : S16x1.Idx) :
    ∃ pc ∈ ([⟨Rect.unit (s := S16x1) ![0, 0] S16x1.size inb_S16x1_S16x1_0_0, w⟩] : List (View.Piece (Elt F) S16x1 .f32)), y ∈ pc.1.set :=
  ⟨_, List.mem_singleton_self _, View.mem_set_unit_zero hz2 inb_S16x1_S16x1_0_0 y⟩

/-- So after one whole store the 16 × 1024 buffer reads the stored value, -/
theorem readOut {sig' : RefSig} {κ : Kind} {sp : Space} (v : View sig' κ sp S16x1024 .f32) (f : v.ty.Contents (Elt F)) (w : Vec F S16x1024 .f32) :
    v.read (Elt F) (v.writes (Elt F) f [⟨Rect.unit (s := S16x1024) ![0, 0] S16x1024.size inb_S16x1024_S16x1024_0_0, w⟩]) = w :=
  (View.read_writes_eq_canon v f _ (coverOut w)).trans (View.canon_unit_zero hz2 _ w)

/-- the 1000 × 16 buffer likewise, -/
theorem readTab {sig' : RefSig} {κ : Kind} {sp : Space} (v : View sig' κ sp S1000x16 .f32) (f : v.ty.Contents (Elt F)) (w : Vec F S1000x16 .f32) :
    v.read (Elt F) (v.writes (Elt F) f [⟨Rect.unit (s := S1000x16) ![0, 0] S1000x16.size inb_S1000x16_S1000x16_0_0, w⟩]) = w :=
  (View.read_writes_eq_canon v f _ (coverTab w)).trans (View.canon_unit_zero hz2 _ w)

/-- and the 16 × 1 buffer. -/
theorem readCol {sig' : RefSig} {κ : Kind} {sp : Space} (v : View sig' κ sp S16x1 .f32) (f : v.ty.Contents (Elt F)) (w : Vec F S16x1 .f32) :
    v.read (Elt F) (v.writes (Elt F) f [⟨Rect.unit (s := S16x1) ![0, 0] S16x1.size inb_S16x1_S16x1_0_0, w⟩]) = w :=
  (View.read_writes_eq_canon v f _ (coverCol w)).trans (View.canon_unit_zero hz2 _ w)

end Cert.Kernel.Body
end
-- ==== Proof.Bits.StepFirst.lean ====
/-
  The first grid step, at any reading of the floats.

  Write `x` for the half block read (1000 × 1024 integers), `T` for the 16 × 1000 table block, `Tᵗ` for its
  transpose and `p = (Tᵗ)ᵗ · float(x)` for the 16 × 1024 product the matrix unit forms from a zero accumulator.
  At the first point the body stores `Tᵗ` into the first scratch buffer and reads it back; it then leaves in the
  output buffer the columns `1 … 1023` of `p` followed by the one column the second scratch buffer held on entry
  (which nothing has written yet), and in the second scratch buffer column `0` of `p`.
-/
import proofs.«114631_g5153960755898_cont_9to1_m_245_26_alg».proof.Proof.Bits.StepShape

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body at a point where its condition holds, on whole buffers: the inputs at `x0`, `x1`, the output and the
    first scratch buffer at anything, the second scratch buffer at `xc`. -/
theorem runFirst (c : Dev nD) (i : grid0.Coords) (arg2 : Memref sig .tc .vmem S1000x2048 .i32) (harg2 : arg2.IsWhole) (arg3 : Memref sig .tc .vmem S16x1000 .f32) (harg3 : arg3.IsWhole) (arg4 : Memref sig .tc .vmem S16x1024 .f32) (harg4 : arg4.IsWhole) (arg5 : Memref sig .tc .vmem S1000x16 .f32) (harg5 : arg5.IsWhole) (arg6 : Memref sig .tc .vmem S16x1 .f32) (harg6 : arg6.IsWhole) (hc0 : cond0 i)
    (x0 : Vec F S1000x2048 .i32) (x1 : Vec F S16x1000 .f32) (xc : Vec F S16x1 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xc
        ∗ (iprop(owns (c : Thread nD τ) arg2 fullShare x0 ∗ owns (c : Thread nD τ) arg3 fullShare x1
            ∗ owns (c : Thread nD τ) arg4 fullShare (k0_pay3 (View.ld x0 (rX i)) (k0_pay1 x1) xc)
            ∗ owns (c : Thread nD τ) arg5 fullShare (k0_pay1 x1)
            ∗ owns (c : Thread nD τ) arg6 fullShare (k0_pay4 (View.ld x0 (rX i)) (k0_pay1 x1))) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%d2, %f2, -, H2⟩, ⟨%ds0, %fs0, -, HS0⟩, ⟨%fs1, %hfs1, HS1⟩, Hk⟩
  obtain rfl := harg2.eq_unread hf0; obtain rfl := harg3.eq_unread hf1; obtain rfl := harg6.eq_unread hfs1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    refine (readOut _ _ _).trans ?_
    simp only [View.readCov_unit_zero (S := S1000x16) _ hz2, View.readAt_eq_ld, harg2.read_unread, harg3.read_unread, harg6.read_unread, View.ld_unit_zero (S := S16x1000) hz2, View.ld_unit_zero (S := S16x1) hz2]
  isplitl [HS0]
  · iexists _; isplitr; swap; · iexact HS0
    ipureintro
    sl_unfold_run_names
    refine (readTab _ _ _).trans ?_
    simp only [View.readAt_eq_ld, harg3.read_unread, View.ld_unit_zero (S := S16x1000) hz2]
  · iexists _; isplitr; swap; · iexact HS1
    ipureintro
    sl_unfold_run_names
    refine (readCol _ _ _).trans ?_
    simp only [View.readCov_unit_zero (S := S1000x16) _ hz2, View.readAt_eq_ld, harg2.read_unread, harg3.read_unread, View.ld_unit_zero (S := S16x1000) hz2]

end Cert.Kernel.Body
end
-- ==== Proof.Bits.StepLater.lean ====
/-
  A later grid step, at any reading of the floats.

  With `x` the half block read, `e` what the first scratch buffer holds and `p = eᵗ · float(x)` (16 × 1024, from a
  zero accumulator): the body leaves in the output buffer the columns `1 … 1023` of `p` followed by the column the
  second scratch buffer held on entry, in the second scratch buffer column `0` of `p`, and the first scratch buffer
  as it found it.
-/
import proofs.«114631_g5153960755898_cont_9to1_m_245_26_alg».proof.Proof.Bits.StepShape

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body at a point where its condition fails, on whole buffers: the inputs at `x0`, `x1`, the output at
    anything, the scratch buffers at `xe` and `xc`. -/
theorem runLater (c : Dev nD) (i : grid0.Coords) (arg2 : Memref sig .tc .vmem S1000x2048 .i32) (harg2 : arg2.IsWhole) (arg3 : Memref sig .tc .vmem S16x1000 .f32) (harg3 : arg3.IsWhole) (arg4 : Memref sig .tc .vmem S16x1024 .f32) (harg4 : arg4.IsWhole) (arg5 : Memref sig .tc .vmem S1000x16 .f32) (harg5 : arg5.IsWhole) (arg6 : Memref sig .tc .vmem S16x1 .f32) (harg6 : arg6.IsWhole) (hc0 : ¬cond0 i)
    (x0 : Vec F S1000x2048 .i32) (x1 : Vec F S16x1000 .f32) (xe : Vec F S1000x16 .f32) (xc : Vec F S16x1 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xe ∗ owns (c : Thread nD τ) arg6 fullShare xc
        ∗ (iprop(owns (c : Thread nD τ) arg2 fullShare x0 ∗ owns (c : Thread nD τ) arg3 fullShare x1
            ∗ owns (c : Thread nD τ) arg4 fullShare (k0_pay3 (View.ld x0 (rX i)) xe xc)
            ∗ owns (c : Thread nD τ) arg5 fullShare xe
            ∗ owns (c : Thread nD τ) arg6 fullShare (k0_pay4 (View.ld x0 (rX i)) xe)) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg2.eq_unread hf0; obtain rfl := harg3.eq_unread hf1; obtain rfl := harg5.eq_unread hfs0; obtain rfl := harg6.eq_unread hfs1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    refine (readOut _ _ _).trans ?_
    simp only [View.readAt_eq_ld, harg2.read_unread, harg5.read_unread, harg6.read_unread, View.ld_unit_zero (S := S1000x16) hz2, View.ld_unit_zero (S := S16x1) hz2]
  isplitl [HS0]
  · iexists _; isplitr; · ipureintro; exact harg5.read_unread _
    iexact HS0
  · iexists _; isplitr; swap; · iexact HS1
    ipureintro
    sl_unfold_run_names
    refine (readCol _ _ _).trans ?_
    simp only [View.readAt_eq_ld, harg2.read_unread, harg5.read_unread, View.ld_unit_zero (S := S1000x16) hz2]

end Cert.Kernel.Body
end
-- ==== Proof.Bits.Shift.lean ====
/-
  How the stored block and the kept column read the product, at any reading of the floats.

  With `p` the 16 × 1024 product of a step and `e` the column the second scratch buffer held, the block
  stored to the output is `p`'s columns `1 … 1023` followed by `e`: at column `q < 1023` it is `p` at column
  `q + 1`, at column `1023` it is `e`. The column kept for the next step is `p`'s column `0`.
  The last output block of the array (the first the grid visits) has only 1023 columns inside the array, so
  what is written back from it does not depend on `e`.
-/
import proofs.«114631_g5153960755898_cont_9to1_m_245_26_alg».proof.Proof.Bits.StepShape
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open ValueIdx

/-- Left of its last column, the stored block is the product one column to the right. -/
theorem stored_left (a : Vec F S1000x1024 .i32) (b : Vec F S1000x16 .f32) (e : Vec F S16x1 .f32)
    (n : Fin 16) (q : Fin 1024) (hq : q.val < 1023) :
    k0_pay3 a b e (ix2 n q) = k0_pay2 a b (ix2 n (⟨q.val + 1, by omega⟩ : Fin 1024)) := by
  unfold k0_pay3
  refine (concatenate_pair_apply_left (t := S16x1024) (s₁ := S16x1023) (s₂ := S16x1) (1 : Fin 2) _ _ _ (ix2 n q) rfl (ix2 n (⟨q.val, hq⟩ : Fin 1023)) ?_).trans ?_
  · intro d; match d with
    | ⟨0, _⟩ => rfl
    | ⟨1, _⟩ => rfl
  · exact extractStridedSlice_apply _ _ _ _ _ (fun d => by
      match d with
      | ⟨0, _⟩ => show n.val = 0 + n.val; omega
      | ⟨1, _⟩ => show q.val + 1 = 1 + q.val; omega)

/-- Its last column is the column the second scratch buffer held. -/
theorem stored_last (a : Vec F S1000x1024 .i32) (b : Vec F S1000x16 .f32) (e : Vec F S16x1 .f32)
    (n : Fin 16) (q : Fin 1024) (hq : q.val = 1023) :
    k0_pay3 a b e (ix2 n q) = e (ix2 n (0 : Fin 1)) := by
  unfold k0_pay3
  refine concatenate_pair_apply_right (t := S16x1024) (s₁ := S16x1023) (s₂ := S16x1) (1 : Fin 2) _ _ _ (ix2 n q) rfl rfl (ix2 n (0 : Fin 1)) ?_ ?_
  · intro d hd; match d with
    | ⟨0, _⟩ => rfl
    | ⟨1, _⟩ => exact absurd rfl hd
  · show 0 + 1023 = q.val; omega

/-- The kept column is the product's column `0`. -/
theorem kept_col (a : Vec F S1000x1024 .i32) (b : Vec F S1000x16 .f32) (n : Fin 16) :
    k0_pay4 a b (ix2 n (0 : Fin 1)) = k0_pay2 a b (ix2 n (0 : Fin 1024)) := by
  unfold k0_pay4
  rw [shapeCast_self]
  exact extractStridedSlice_apply _ _ _ _ _ (fun d => by
    match d with
    | ⟨0, _⟩ => show n.val = 0 + n.val; omega
    | ⟨1, _⟩ => rfl)

/-- The output block the grid visits first has 1023 of its 1024 columns inside the array. -/
theorem first_block_columns : win0_2.xsize (grid0.coords t0_0) 1 = 1023 := by decide +kernel

/-- Left of its last column the stored block does not depend on the column the second scratch buffer held. -/
theorem stored_indep (a : Vec F S1000x1024 .i32) (b : Vec F S1000x16 .f32) (e e' : Vec F S16x1 .f32)
    (J : S16x1024.Idx) (hJ : (J 1).val < 1023) : k0_pay3 a b e J = k0_pay3 a b e' J := by
  obtain ⟨n, q, rfl⟩ : ∃ (n : Fin 16) (q : Fin 1024), J = ix2 n q := ⟨J 0, J 1, eq_ix2 J⟩
  rw [stored_left a b e n q hJ, stored_left a b e' n q hJ]

/-- So what is written back from the first block visited is the same whatever that column was. -/
theorem first_cut (a : Vec F S1000x1024 .i32) (b : Vec F S1000x16 .f32) (e e' : Vec F S16x1 .f32) :
    win0_2.cut (grid0.coords t0_0) (k0_pay3 a b e) = win0_2.cut (grid0.coords t0_0) (k0_pay3 a b e') := by
  funext j
  exact stored_indep a b e e' _ (lt_of_lt_of_eq (j 1).isLt first_block_columns)

end Cert.Kernel.Body
end
-- ==== Proof.Bits.Carry.lean ====
/-
  The sixteen steps chained, at any reading of the floats: what every buffer holds between steps, the body's
  obligation to the pipeline at every step, the run, and the frame.

  The grid visits the output's sixteen blocks of 1024 columns from the last to the first. Step `t` reads the half
  block `x_t` of the streamed operand and forms `p_t = Tᵗᵗ · float(x_t)` with the transposed table `Tᵗ` that the
  first step left in the first scratch buffer. It stores the columns `1 … 1023` of `p_t` followed by the column the
  second scratch buffer holds — column `0` of `p_{t-1}`, kept there by the step before — and keeps column `0` of
  `p_t` in turn. At the first step nothing has been kept yet and that last column is whatever the buffer held; but
  the block stored there is the array's last, which has only 1023 columns inside the array, so what is written back
  does not depend on it. Between steps, then: the first scratch buffer holds `Tᵗ` and the second column `0` of the
  last product.
-/
import proofs.«114631_g5153960755898_cont_9to1_m_245_26_alg».proof.Proof.Bits.StepFirst
import proofs.«114631_g5153960755898_cont_9to1_m_245_26_alg».proof.Proof.Bits.StepLater
import proofs.«114631_g5153960755898_cont_9to1_m_245_26_alg».proof.Proof.Bits.Shift

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

/-- Each window's current staging buffer at step `t`. -/
abbrev ms0 (t : Fin cfg0.N) : Memref sig .tc .vmem S1000x2048 .i32 := win0_0.stage (cfg0.slots t 0)
abbrev ms1 (t : Fin cfg0.N) : Memref sig .tc .vmem S16x1000 .f32 := win0_1.stage (cfg0.slots t 1)
abbrev ms2 (t : Fin cfg0.N) : Memref sig .tc .vmem S16x1024 .f32 := win0_2.stage (cfg0.slots t 2)
/-- The two scratch buffers: the transposed table's, and the kept column's. -/
abbrev scTab : Memref sig .tc .vmem S1000x16 .f32 := Memref.whole cc0_scratch0
abbrev scCol : Memref sig .tc .vmem S16x1 .f32 := Memref.whole cc0_scratch1

/-- What the pipeline hands a body that keeps nothing: both scratch buffers at anything, and the generator. -/
theorem PhiA_eq (c : Dev nD) :
    (Pipeline.ΦA spec0 c : sProp 𝕄)
      = iprop(iprop((∃ d, owns (c : Thread nD τ) scTab fullShare d) ∗ (∃ d, owns (c : Thread nD τ) scCol fullShare d)) ∗ (∃ r, prngReg c r)) := by
  unfold Pipeline.ΦA; rw [scopedRest0_eq]; simp only [scTab, scCol, owns_whole]; try rfl

/-! ## What the steps compute -/

/-- The half block step `t` reads. -/
def half (c : Dev nD) (t : Fin cfg0.N) : Vec F S1000x1024 .i32 :=
  View.ld (Val := Elt F) (e' := .i32) (iblk m c 0 t : Vec F S1000x2048 .i32) (rX (grid0.coords t))
/-- The transposed table, as the first step stores it. -/
def tab (c : Dev nD) : Vec F S1000x16 .f32 := k0_pay1 (iblk m c 1 t0_0 : Vec F S16x1000 .f32)
/-- The column step `t` keeps: column `0` of its product. -/
def colAfter (c : Dev nD) (t : Fin cfg0.N) : Vec F S16x1 .f32 := k0_pay4 (half m c t) (tab m c)
/-- The column step `n` finds: the one the step before kept; at the first step, nothing anyone reads. -/
def colBefore (c : Dev nD) : (n : ℕ) → n < cfg0.N → Vec F S16x1 .f32
  | 0, _ => fun _ => Scalar.ofBits .f32 0#32
  | n + 1, h => colAfter m c ⟨n, Nat.lt_of_succ_lt h⟩
/-- The block step `t` stores. -/
def stored (c : Dev nD) (t : Fin cfg0.N) : Vec F S16x1024 .f32 :=
  k0_pay3 (half m c t) (tab m c) (colBefore m c t.val t.isLt)

theorem stored_pos (c : Dev nD) (t : Fin cfg0.N) (ht : t.val ≠ 0) :
    stored m c t = k0_pay3 (half m c t) (tab m c) (colAfter m c ⟨t.val - 1, Nat.lt_of_le_of_lt (Nat.sub_le _ _) t.isLt⟩) := by
  obtain ⟨n, hn⟩ := t
  cases n with
  | zero => exact absurd rfl ht
  | succ n => rfl

/-- At the first step, whatever column the second scratch buffer held, the stored block agrees on its part inside
    the array with `stored`. -/
theorem stored_first_fill (c : Dev nD) (e1 : Vec F S16x1 .f32) :
    (cfg0.win 2).fill (cfg0.grid.coords t0_0) (k0_pay3 (half m c t0_0) (tab m c) e1)
        ((cfg0.win 2).cut (cfg0.grid.coords t0_0) (stored m c t0_0))
      = k0_pay3 (half m c t0_0) (tab m c) e1 :=
  win0_2.fill_congr_cut _ (first_cut _ _ _ _)

/-! ## Between the steps -/

/-- What the scratch buffers hold before step `n`: anything before the first; afterwards the transposed table and
    the column the step before kept. -/
def PhiS (c : Dev nD) : (n : ℕ) → n ≤ cfg0.N → sProp 𝕄
  | 0, _ => Pipeline.ΦA spec0 c
  | n + 1, hn => iprop(iprop(owns (c : Thread nD τ) scTab fullShare (tab m c) ∗ owns (c : Thread nD τ) scCol fullShare (colAfter m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scTab fullShare (tab m c) ∗ owns (c : Thread nD τ) scCol fullShare (colAfter m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scTab fullShare (tab m c) ∗ owns (c : Thread nD τ) scCol fullShare (colAfter m c ⟨n - 1, by omega⟩)) ∗ (∃ r, prngReg c r)) := by
  cases n with
  | zero => exact absurd rfl hz
  | succ n => rfl

/-! ## The pipeline's proof data -/

/-- On core `c`: the arrays as the region finds them; after step `t` the inputs' buffers at their blocks and the
    output's at the stored block; between steps `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => stored m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = stored m c t := by dsimp only [dats]

/-- Each input's current buffer holds its block at every step, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body's obligation at a step -/

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the output's buffer described on its part inside the array only. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare
        ((cfg0.win 2).fill (cfg0.grid.coords t) d ((cfg0.win 2).cut (cfg0.grid.coords t) ((dats m 0 c).after 2 t)))))

set_option maxHeartbeats 3200000 in
/-- The body at any step: the first step's run from scratch buffers at anything, a later step's from the transposed
    table and the kept column. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl, after0, after1, after2]
  rw [show (dats m 0 c).Φ t.succ = PhiS m c (t.val + 1) t.isLt from rfl, PhiS_succ]
  by_cases hz : t.val = 0
  · obtain rfl : t = t0_0 := Fin.ext hz
    rw [PhiS_castSucc m c t0_0, PhiS_zero m c _ _ hz, PhiA_eq]
    iintro ⟨⟨⟨⟨%e0, HS0⟩, ⟨%e1, HS1⟩⟩, Hg⟩, Ho, ⟨%d0, H0⟩, ⟨%d1, H1⟩, ⟨%d2, H2⟩⟩
    iapply (runFirst c (grid0.coords t0_0) _ _ _ _ _ _ _ _ _ _ ((hcond0 t0_0).mpr hz) (iblk m c 0 t0_0) (iblk m c 1 t0_0) e1 Set.univ _)
    isplitl [H0]; · iexact H0
    isplitl [H1]; · iexact H1
    isplitl [H2]; · iexists _; iexact H2
    isplitl [HS0]; · iexists _; iexact HS0
    isplitl [HS1]; · iexact HS1
    iintro ⟨H0, H1, H2, HS0, HS1⟩
    isplitl [HS0 HS1 Hg]
    · isplitl [HS0 HS1]
      · isplitl [HS0]
        · iexact HS0
        · iexact HS1
      · iexact Hg
    isplitl [Ho]; · iexact Ho
    isplitl [H0]; · iexact H0
    isplitl [H1]; · iexact H1
    iexists (k0_pay3 (half m c t0_0) (tab m c) e1)
    rw [stored_first_fill m c e1]
    iexact H2
  · rw [PhiS_castSucc m c t, PhiS_pos m c _ _ hz]
    iintro ⟨⟨⟨HS0, HS1⟩, Hg⟩, Ho, ⟨%d0, H0⟩, ⟨%d1, H1⟩, ⟨%d2, H2⟩⟩
    iapply (runLater c (grid0.coords t) _ _ _ _ _ _ _ _ _ _ (fun h => hz ((hcond0 t).mp h)) (iblk m c 0 t) (iblk m c 1 t) (tab m c) (colAfter m c ⟨t.val - 1, by omega⟩) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]
        · iexact HS0
        · iexact HS1
      · iexact Hg
    isplitl [Ho]; · iexact Ho
    isplitl [H0]; · iexact H0
    isplitl [H1]; · iexact H1
    iexists (stored m c t)
    rw [(cfg0.win 2).fill_cut, stored_pos m c t hz]
    iexact H2

/-- The library's body obligation, at every step. -/
theorem body_obligation (c : Dev nD) : BodyObligationLoose (dats (F := F) m 0 c) (defs₀ (F := F)) Variants.none () Set.univ := fun t => by
  rw [bigSep_W0, bigSep_W0]
  exact sound_body m c t

/-- What the launch hands the region is what the first step expects. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last step the scratch buffers are handed back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of the program terminates, without a fault, with the output array at what the
    sixteen write-backs leave and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body
end
-- ==== Proof.Ideal.StepShape.lean ====
/-
  The shape of one grid step of the kernel, at any reading of the floats.

  The grid is 8 × 2 points `(i, h)`, walked in order, and the body branches once, on `i = 0 ∧ h = 0`:
  true at the first point only. Every access of the body is a whole buffer, except the read of the streamed
  block, which takes the half of 1024 columns starting at column `(1 - h) · 1024`. A store of a whole
  buffer covers it, so what the buffer then reads is the stored value.
-/
import proofs.«114631_g5153960755898_cont_9to1_m_245_26_alg».proof.Proof.Gen.KernelIdeal.Frame
import proofs.«114631_g5153960755898_cont_9to1_m_245_26_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's condition `i = 0 ∧ h = 0`, as the body computes it from the grid coordinates. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first of the sixteen points and at no other. -/
theorem hcond0 : ∀ t : Fin cfg0.N, cond0 (grid0.coords t) ↔ t.val = 0 :=
  (by decide +kernel : ∀ t : Fin grid0.N, cond0 (grid0.coords t) ↔ t.val = 0)

/-- The half of the streamed block read at a point: all 1000 rows, 1024 columns from column `(1 - h) · 1024`. -/
abbrev rX (i : grid0.Coords) : Rect S1000x2048 := Rect.unit (s := S1000x2048) (k0_off1 i) S1000x1024.size (k0_off1_inb i)

/-- The zero offsets, as a constant function. -/
theorem hz2 : (![0, 0] : Fin 2 → Nat) = fun _ => 0 := funext fun a => by fin_cases a <;> rfl

/-- One store of the whole 16 × 1024 buffer covers it. -/
theorem coverOut (w : Vec F S16x1024 .f32) (y : S16x1024.Idx) :
    ∃ pc ∈ ([⟨Rect.unit (s := S16x1024) ![0, 0] S16x1024.size inb_S16x1024_S16x1024_0_0, w⟩] : List (View.Piece (Elt F) S16x1024 .f32)), y ∈ pc.1.set :=
  ⟨_, List.mem_singleton_self _, View.mem_set_unit_zero hz2 inb_S16x1024_S16x1024_0_0 y⟩

/-- One store of the whole 1000 × 16 buffer covers it. -/
theorem coverTab (w : Vec F S1000x16 .f32) (y : S1000x16.Idx) :
    ∃ pc ∈ ([⟨Rect.unit (s := S1000x16) ![0, 0] S1000x16.size inb_S1000x16_S1000x16_0_0, w⟩] : List (View.Piece (Elt F) S1000x16 .f32)), y ∈ pc.1.set :=
  ⟨_, List.mem_singleton_self _, View.mem_set_unit_zero hz2 inb_S1000x16_S1000x16_0_0 y⟩

/-- One store of the whole 16 × 1 buffer covers it. -/
theorem coverCol (w : Vec F S16x1 .f32) (y : S16x1.Idx) :
    ∃ pc ∈ ([⟨Rect.unit (s := S16x1) ![0, 0] S16x1.size inb_S16x1_S16x1_0_0, w⟩] : List (View.Piece (Elt F) S16x1 .f32)), y ∈ pc.1.set :=
  ⟨_, List.mem_singleton_self _, View.mem_set_unit_zero hz2 inb_S16x1_S16x1_0_0 y⟩

/-- So after one whole store the 16 × 1024 buffer reads the stored value, -/
theorem readOut {sig' : RefSig} {κ : Kind} {sp : Space} (v : View sig' κ sp S16x1024 .f32) (f : v.ty.Contents (Elt F)) (w : Vec F S16x1024 .f32) :
    v.read (Elt F) (v.writes (Elt F) f [⟨Rect.unit (s := S16x1024) ![0, 0] S16x1024.size inb_S16x1024_S16x1024_0_0, w⟩]) = w :=
  (View.read_writes_eq_canon v f _ (coverOut w)).trans (View.canon_unit_zero hz2 _ w)

/-- the 1000 × 16 buffer likewise, -/
theorem readTab {sig' : RefSig} {κ : Kind} {sp : Space} (v : View sig' κ sp S1000x16 .f32) (f : v.ty.Contents (Elt F)) (w : Vec F S1000x16 .f32) :
    v.read (Elt F) (v.writes (Elt F) f [⟨Rect.unit (s := S1000x16) ![0, 0] S1000x16.size inb_S1000x16_S1000x16_0_0, w⟩]) = w :=
  (View.read_writes_eq_canon v f _ (coverTab w)).trans (View.canon_unit_zero hz2 _ w)

/-- and the 16 × 1 buffer. -/
theorem readCol {sig' : RefSig} {κ : Kind} {sp : Space} (v : View sig' κ sp S16x1 .f32) (f : v.ty.Contents (Elt F)) (w : Vec F S16x1 .f32) :
    v.read (Elt F) (v.writes (Elt F) f [⟨Rect.unit (s := S16x1) ![0, 0] S16x1.size inb_S16x1_S16x1_0_0, w⟩]) = w :=
  (View.read_writes_eq_canon v f _ (coverCol w)).trans (View.canon_unit_zero hz2 _ w)

end Cert.KernelIdeal.Body
end
-- ==== Proof.Ideal.StepFirst.lean ====
/-
  The first grid step, at any reading of the floats.

  Write `x` for the half block read (1000 × 1024 integers), `T` for the 16 × 1000 table block, `Tᵗ` for its
  transpose and `p = (Tᵗ)ᵗ · float(x)` for the 16 × 1024 product the matrix unit forms from a zero accumulator.
  At the first point the body stores `Tᵗ` into the first scratch buffer and reads it back; it then leaves in the
  output buffer the columns `1 … 1023` of `p` followed by the one column the second scratch buffer held on entry
  (which nothing has written yet), and in the second scratch buffer column `0` of `p`.
-/
import proofs.«114631_g5153960755898_cont_9to1_m_245_26_alg».proof.Proof.Ideal.StepShape

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body at a point where its condition holds, on whole buffers: the inputs at `x0`, `x1`, the output and the
    first scratch buffer at anything, the second scratch buffer at `xc`. -/
theorem runFirst (c : Dev nD) (i : grid0.Coords) (arg2 : Memref sig .tc .vmem S1000x2048 .i32) (harg2 : arg2.IsWhole) (arg3 : Memref sig .tc .vmem S16x1000 .f32) (harg3 : arg3.IsWhole) (arg4 : Memref sig .tc .vmem S16x1024 .f32) (harg4 : arg4.IsWhole) (arg5 : Memref sig .tc .vmem S1000x16 .f32) (harg5 : arg5.IsWhole) (arg6 : Memref sig .tc .vmem S16x1 .f32) (harg6 : arg6.IsWhole) (hc0 : cond0 i)
    (x0 : Vec F S1000x2048 .i32) (x1 : Vec F S16x1000 .f32) (xc : Vec F S16x1 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xc
        ∗ (iprop(owns (c : Thread nD τ) arg2 fullShare x0 ∗ owns (c : Thread nD τ) arg3 fullShare x1
            ∗ owns (c : Thread nD τ) arg4 fullShare (k0_pay3 (View.ld x0 (rX i)) (k0_pay1 x1) xc)
            ∗ owns (c : Thread nD τ) arg5 fullShare (k0_pay1 x1)
            ∗ owns (c : Thread nD τ) arg6 fullShare (k0_pay4 (View.ld x0 (rX i)) (k0_pay1 x1))) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%d2, %f2, -, H2⟩, ⟨%ds0, %fs0, -, HS0⟩, ⟨%fs1, %hfs1, HS1⟩, Hk⟩
  obtain rfl := harg2.eq_unread hf0; obtain rfl := harg3.eq_unread hf1; obtain rfl := harg6.eq_unread hfs1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    refine (readOut _ _ _).trans ?_
    simp only [View.readCov_unit_zero (S := S1000x16) _ hz2, View.readAt_eq_ld, harg2.read_unread, harg3.read_unread, harg6.read_unread, View.ld_unit_zero (S := S16x1000) hz2, View.ld_unit_zero (S := S16x1) hz2]
  isplitl [HS0]
  · iexists _; isplitr; swap; · iexact HS0
    ipureintro
    sl_unfold_run_names
    refine (readTab _ _ _).trans ?_
    simp only [View.readAt_eq_ld, harg3.read_unread, View.ld_unit_zero (S := S16x1000) hz2]
  · iexists _; isplitr; swap; · iexact HS1
    ipureintro
    sl_unfold_run_names
    refine (readCol _ _ _).trans ?_
    simp only [View.readCov_unit_zero (S := S1000x16) _ hz2, View.readAt_eq_ld, harg2.read_unread, harg3.read_unread, View.ld_unit_zero (S := S16x1000) hz2]

end Cert.KernelIdeal.Body
end
-- ==== Proof.Ideal.StepLater.lean ====
/-
  A later grid step, at any reading of the floats.

  With `x` the half block read, `e` what the first scratch buffer holds and `p = eᵗ · float(x)` (16 × 1024, from a
  zero accumulator): the body leaves in the output buffer the columns `1 … 1023` of `p` followed by the column the
  second scratch buffer held on entry, in the second scratch buffer column `0` of `p`, and the first scratch buffer
  as it found it.
-/
import proofs.«114631_g5153960755898_cont_9to1_m_245_26_alg».proof.Proof.Ideal.StepShape

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body at a point where its condition fails, on whole buffers: the inputs at `x0`, `x1`, the output at
    anything, the scratch buffers at `xe` and `xc`. -/
theorem runLater (c : Dev nD) (i : grid0.Coords) (arg2 : Memref sig .tc .vmem S1000x2048 .i32) (harg2 : arg2.IsWhole) (arg3 : Memref sig .tc .vmem S16x1000 .f32) (harg3 : arg3.IsWhole) (arg4 : Memref sig .tc .vmem S16x1024 .f32) (harg4 : arg4.IsWhole) (arg5 : Memref sig .tc .vmem S1000x16 .f32) (harg5 : arg5.IsWhole) (arg6 : Memref sig .tc .vmem S16x1 .f32) (harg6 : arg6.IsWhole) (hc0 : ¬cond0 i)
    (x0 : Vec F S1000x2048 .i32) (x1 : Vec F S16x1000 .f32) (xe : Vec F S1000x16 .f32) (xc : Vec F S16x1 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xe ∗ owns (c : Thread nD τ) arg6 fullShare xc
        ∗ (iprop(owns (c : Thread nD τ) arg2 fullShare x0 ∗ owns (c : Thread nD τ) arg3 fullShare x1
            ∗ owns (c : Thread nD τ) arg4 fullShare (k0_pay3 (View.ld x0 (rX i)) xe xc)
            ∗ owns (c : Thread nD τ) arg5 fullShare xe
            ∗ owns (c : Thread nD τ) arg6 fullShare (k0_pay4 (View.ld x0 (rX i)) xe)) -∗ K ⟨⟩))
      ⊢ wp frame (wpE (defs₀ (F := F)) Variants.none c none) E (cc0__body i arg2 harg2 arg3 harg3 arg4 harg4 arg5 harg5 arg6 harg6) K := by
  simp only [cc0__body_eq_skeleton]; unfold cc0__body_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg2.eq_unread hf0; obtain rfl := harg3.eq_unread hf1; obtain rfl := harg5.eq_unread hfs0; obtain rfl := harg6.eq_unread hfs1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_run_names
    refine (readOut _ _ _).trans ?_
    simp only [View.readAt_eq_ld, harg2.read_unread, harg5.read_unread, harg6.read_unread, View.ld_unit_zero (S := S1000x16) hz2, View.ld_unit_zero (S := S16x1) hz2]
  isplitl [HS0]
  · iexists _; isplitr; · ipureintro; exact harg5.read_unread _
    iexact HS0
  · iexists _; isplitr; swap; · iexact HS1
    ipureintro
    sl_unfold_run_names
    refine (readCol _ _ _).trans ?_
    simp only [View.readAt_eq_ld, harg2.read_unread, harg5.read_unread, View.ld_unit_zero (S := S1000x16) hz2]

end Cert.KernelIdeal.Body
end
-- ==== Proof.Ideal.Shift.lean ====
/-
  How the stored block and the kept column read the product, at any reading of the floats.

  With `p` the 16 × 1024 product of a step and `e` the column the second scratch buffer held, the block
  stored to the output is `p`'s columns `1 … 1023` followed by `e`: at column `q < 1023` it is `p` at column
  `q + 1`, at column `1023` it is `e`. The column kept for the next step is `p`'s column `0`.
  The last output block of the array (the first the grid visits) has only 1023 columns inside the array, so
  what is written back from it does not depend on `e`.
-/
import proofs.«114631_g5153960755898_cont_9to1_m_245_26_alg».proof.Proof.Ideal.StepShape
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open ValueIdx

/-- Left of its last column, the stored block is the product one column to the right. -/
theorem stored_left (a : Vec F S1000x1024 .i32) (b : Vec F S1000x16 .f32) (e : Vec F S16x1 .f32)
    (n : Fin 16) (q : Fin 1024) (hq : q.val < 1023) :
    k0_pay3 a b e (ix2 n q) = k0_pay2 a b (ix2 n (⟨q.val + 1, by omega⟩ : Fin 1024)) := by
  unfold k0_pay3
  refine (concatenate_pair_apply_left (t := S16x1024) (s₁ := S16x1023) (s₂ := S16x1) (1 : Fin 2) _ _ _ (ix2 n q) rfl (ix2 n (⟨q.val, hq⟩ : Fin 1023)) ?_).trans ?_
  · intro d; match d with
    | ⟨0, _⟩ => rfl
    | ⟨1, _⟩ => rfl
  · exact extractStridedSlice_apply _ _ _ _ _ (fun d => by
      match d with
      | ⟨0, _⟩ => show n.val = 0 + n.val; omega
      | ⟨1, _⟩ => show q.val + 1 = 1 + q.val; omega)

/-- Its last column is the column the second scratch buffer held. -/
theorem stored_last (a : Vec F S1000x1024 .i32) (b : Vec F S1000x16 .f32) (e : Vec F S16x1 .f32)
    (n : Fin 16) (q : Fin 1024) (hq : q.val = 1023) :
    k0_pay3 a b e (ix2 n q) = e (ix2 n (0 : Fin 1)) := by
  unfold k0_pay3
  refine concatenate_pair_apply_right (t := S16x1024) (s₁ := S16x1023) (s₂ := S16x1) (1 : Fin 2) _ _ _ (ix2 n q) rfl rfl (ix2 n (0 : Fin 1)) ?_ ?_
  · intro d hd; match d with
    | ⟨0, _⟩ => rfl
    | ⟨1, _⟩ => exact absurd rfl hd
  · show 0 + 1023 = q.val; omega

/-- The kept column is the product's column `0`. -/
theorem kept_col (a : Vec F S1000x1024 .i32) (b : Vec F S1000x16 .f32) (n : Fin 16) :
    k0_pay4 a b (ix2 n (0 : Fin 1)) = k0_pay2 a b (ix2 n (0 : Fin 1024)) := by
  unfold k0_pay4
  rw [shapeCast_self]
  exact extractStridedSlice_apply _ _ _ _ _ (fun d => by
    match d with
    | ⟨0, _⟩ => show n.val = 0 + n.val; omega
    | ⟨1, _⟩ => rfl)

/-- The output block the grid visits first has 1023 of its 1024 columns inside the array. -/
theorem first_block_columns : win0_2.xsize (grid0.coords t0_0) 1 = 1023 := by decide +kernel

/-- Left of its last column the stored block does not depend on the column the second scratch buffer held. -/
theorem stored_indep (a : Vec F S1000x1024 .i32) (b : Vec F S1000x16 .f32) (e e' : Vec F S16x1 .f32)
    (J : S16x1024.Idx) (hJ : (J 1).val < 1023) : k0_pay3 a b e J = k0_pay3 a b e' J := by
  obtain ⟨n, q, rfl⟩ : ∃ (n : Fin 16) (q : Fin 1024), J = ix2 n q := ⟨J 0, J 1, eq_ix2 J⟩
  rw [stored_left a b e n q hJ, stored_left a b e' n q hJ]

/-- So what is written back from the first block visited is the same whatever that column was. -/
theorem first_cut (a : Vec F S1000x1024 .i32) (b : Vec F S1000x16 .f32) (e e' : Vec F S16x1 .f32) :
    win0_2.cut (grid0.coords t0_0) (k0_pay3 a b e) = win0_2.cut (grid0.coords t0_0) (k0_pay3 a b e') := by
  funext j
  exact stored_indep a b e e' _ (lt_of_lt_of_eq (j 1).isLt first_block_columns)

end Cert.KernelIdeal.Body
end
-- ==== Proof.Ideal.Carry.lean ====
/-
  The sixteen steps chained, at any reading of the floats: what every buffer holds between steps, the body's
  obligation to the pipeline at every step, the run, and the frame.

  The grid visits the output's sixteen blocks of 1024 columns from the last to the first. Step `t` reads the half
  block `x_t` of the streamed operand and forms `p_t = Tᵗᵗ · float(x_t)` with the transposed table `Tᵗ` that the
  first step left in the first scratch buffer. It stores the columns `1 … 1023` of `p_t` followed by the column the
  second scratch buffer holds — column `0` of `p_{t-1}`, kept there by the step before — and keeps column `0` of
  `p_t` in turn. At the first step nothing has been kept yet and that last column is whatever the buffer held; but
  the block stored there is the array's last, which has only 1023 columns inside the array, so what is written back
  does not depend on it. Between steps, then: the first scratch buffer holds `Tᵗ` and the second column `0` of the
  last product.
-/
import proofs.«114631_g5153960755898_cont_9to1_m_245_26_alg».proof.Proof.Ideal.StepFirst
import proofs.«114631_g5153960755898_cont_9to1_m_245_26_alg».proof.Proof.Ideal.StepLater
import proofs.«114631_g5153960755898_cont_9to1_m_245_26_alg».proof.Proof.Ideal.Shift

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

/-- Each window's current staging buffer at step `t`. -/
abbrev ms0 (t : Fin cfg0.N) : Memref sig .tc .vmem S1000x2048 .i32 := win0_0.stage (cfg0.slots t 0)
abbrev ms1 (t : Fin cfg0.N) : Memref sig .tc .vmem S16x1000 .f32 := win0_1.stage (cfg0.slots t 1)
abbrev ms2 (t : Fin cfg0.N) : Memref sig .tc .vmem S16x1024 .f32 := win0_2.stage (cfg0.slots t 2)
/-- The two scratch buffers: the transposed table's, and the kept column's. -/
abbrev scTab : Memref sig .tc .vmem S1000x16 .f32 := Memref.whole cc0_scratch0
abbrev scCol : Memref sig .tc .vmem S16x1 .f32 := Memref.whole cc0_scratch1

/-- What the pipeline hands a body that keeps nothing: both scratch buffers at anything, and the generator. -/
theorem PhiA_eq (c : Dev nD) :
    (Pipeline.ΦA spec0 c : sProp 𝕄)
      = iprop(iprop((∃ d, owns (c : Thread nD τ) scTab fullShare d) ∗ (∃ d, owns (c : Thread nD τ) scCol fullShare d)) ∗ (∃ r, prngReg c r)) := by
  unfold Pipeline.ΦA; rw [scopedRest0_eq]; simp only [scTab, scCol, owns_whole]; try rfl

/-! ## What the steps compute -/

/-- The half block step `t` reads. -/
def half (c : Dev nD) (t : Fin cfg0.N) : Vec F S1000x1024 .i32 :=
  View.ld (Val := Elt F) (e' := .i32) (iblk m c 0 t : Vec F S1000x2048 .i32) (rX (grid0.coords t))
/-- The transposed table, as the first step stores it. -/
def tab (c : Dev nD) : Vec F S1000x16 .f32 := k0_pay1 (iblk m c 1 t0_0 : Vec F S16x1000 .f32)
/-- The column step `t` keeps: column `0` of its product. -/
def colAfter (c : Dev nD) (t : Fin cfg0.N) : Vec F S16x1 .f32 := k0_pay4 (half m c t) (tab m c)
/-- The column step `n` finds: the one the step before kept; at the first step, nothing anyone reads. -/
def colBefore (c : Dev nD) : (n : ℕ) → n < cfg0.N → Vec F S16x1 .f32
  | 0, _ => fun _ => Scalar.ofBits .f32 0#32
  | n + 1, h => colAfter m c ⟨n, Nat.lt_of_succ_lt h⟩
/-- The block step `t` stores. -/
def stored (c : Dev nD) (t : Fin cfg0.N) : Vec F S16x1024 .f32 :=
  k0_pay3 (half m c t) (tab m c) (colBefore m c t.val t.isLt)

theorem stored_pos (c : Dev nD) (t : Fin cfg0.N) (ht : t.val ≠ 0) :
    stored m c t = k0_pay3 (half m c t) (tab m c) (colAfter m c ⟨t.val - 1, Nat.lt_of_le_of_lt (Nat.sub_le _ _) t.isLt⟩) := by
  obtain ⟨n, hn⟩ := t
  cases n with
  | zero => exact absurd rfl ht
  | succ n => rfl

/-- At the first step, whatever column the second scratch buffer held, the stored block agrees on its part inside
    the array with `stored`. -/
theorem stored_first_fill (c : Dev nD) (e1 : Vec F S16x1 .f32) :
    (cfg0.win 2).fill (cfg0.grid.coords t0_0) (k0_pay3 (half m c t0_0) (tab m c) e1)
        ((cfg0.win 2).cut (cfg0.grid.coords t0_0) (stored m c t0_0))
      = k0_pay3 (half m c t0_0) (tab m c) e1 :=
  win0_2.fill_congr_cut _ (first_cut _ _ _ _)

/-! ## Between the steps -/

/-- What the scratch buffers hold before step `n`: anything before the first; afterwards the transposed table and
    the column the step before kept. -/
def PhiS (c : Dev nD) : (n : ℕ) → n ≤ cfg0.N → sProp 𝕄
  | 0, _ => Pipeline.ΦA spec0 c
  | n + 1, hn => iprop(iprop(owns (c : Thread nD τ) scTab fullShare (tab m c) ∗ owns (c : Thread nD τ) scCol fullShare (colAfter m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scTab fullShare (tab m c) ∗ owns (c : Thread nD τ) scCol fullShare (colAfter m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scTab fullShare (tab m c) ∗ owns (c : Thread nD τ) scCol fullShare (colAfter m c ⟨n - 1, by omega⟩)) ∗ (∃ r, prngReg c r)) := by
  cases n with
  | zero => exact absurd rfl hz
  | succ n => rfl

/-! ## The pipeline's proof data -/

/-- On core `c`: the arrays as the region finds them; after step `t` the inputs' buffers at their blocks and the
    output's at the stored block; between steps `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => stored m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = stored m c t := by dsimp only [dats]

/-- Each input's current buffer holds its block at every step, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body's obligation at a step -/

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the output's buffer described on its part inside the array only. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare
        ((cfg0.win 2).fill (cfg0.grid.coords t) d ((cfg0.win 2).cut (cfg0.grid.coords t) ((dats m 0 c).after 2 t)))))

set_option maxHeartbeats 3200000 in
/-- The body at any step: the first step's run from scratch buffers at anything, a later step's from the transposed
    table and the kept column. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl, after0, after1, after2]
  rw [show (dats m 0 c).Φ t.succ = PhiS m c (t.val + 1) t.isLt from rfl, PhiS_succ]
  by_cases hz : t.val = 0
  · obtain rfl : t = t0_0 := Fin.ext hz
    rw [PhiS_castSucc m c t0_0, PhiS_zero m c _ _ hz, PhiA_eq]
    iintro ⟨⟨⟨⟨%e0, HS0⟩, ⟨%e1, HS1⟩⟩, Hg⟩, Ho, ⟨%d0, H0⟩, ⟨%d1, H1⟩, ⟨%d2, H2⟩⟩
    iapply (runFirst c (grid0.coords t0_0) _ _ _ _ _ _ _ _ _ _ ((hcond0 t0_0).mpr hz) (iblk m c 0 t0_0) (iblk m c 1 t0_0) e1 Set.univ _)
    isplitl [H0]; · iexact H0
    isplitl [H1]; · iexact H1
    isplitl [H2]; · iexists _; iexact H2
    isplitl [HS0]; · iexists _; iexact HS0
    isplitl [HS1]; · iexact HS1
    iintro ⟨H0, H1, H2, HS0, HS1⟩
    isplitl [HS0 HS1 Hg]
    · isplitl [HS0 HS1]
      · isplitl [HS0]
        · iexact HS0
        · iexact HS1
      · iexact Hg
    isplitl [Ho]; · iexact Ho
    isplitl [H0]; · iexact H0
    isplitl [H1]; · iexact H1
    iexists (k0_pay3 (half m c t0_0) (tab m c) e1)
    rw [stored_first_fill m c e1]
    iexact H2
  · rw [PhiS_castSucc m c t, PhiS_pos m c _ _ hz]
    iintro ⟨⟨⟨HS0, HS1⟩, Hg⟩, Ho, ⟨%d0, H0⟩, ⟨%d1, H1⟩, ⟨%d2, H2⟩⟩
    iapply (runLater c (grid0.coords t) _ _ _ _ _ _ _ _ _ _ (fun h => hz ((hcond0 t).mp h)) (iblk m c 0 t) (iblk m c 1 t) (tab m c) (colAfter m c ⟨t.val - 1, by omega⟩) Set.univ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0 HS1]
      · isplitl [HS0]
        · iexact HS0
        · iexact HS1
      · iexact Hg
    isplitl [Ho]; · iexact Ho
    isplitl [H0]; · iexact H0
    isplitl [H1]; · iexact H1
    iexists (stored m c t)
    rw [(cfg0.win 2).fill_cut, stored_pos m c t hz]
    iexact H2

/-- The library's body obligation, at every step. -/
theorem body_obligation (c : Dev nD) : BodyObligationLoose (dats (F := F) m 0 c) (defs₀ (F := F)) Variants.none () Set.univ := fun t => by
  rw [bigSep_W0, bigSep_W0]
  exact sound_body m c t

/-- What the launch hands the region is what the first step expects. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last step the scratch buffers are handed back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- Every weakly fair execution of the program terminates, without a fault, with the output array at what the
    sixteen write-backs leave and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body
end
-- ==== Proof.Ideal.Product.lean ====
/-
  The step's product read at an index, at the exact reading of the floats.

  The table the first step stores is the transpose of the table block: entry `(k, n)` is the block's `(n, k)`.
  The matrix unit's product of the stored table `e` (1000 × 16) and the converted half block `x` (1000 × 1024),
  contracted over their common first axis into a zero accumulator, is at `(n, q)` the plain sum over the 1000 rows
  `k` of `e (k, n) · float (x (k, q))`: at the exact reading no rounding and no order of summation is left in it.
-/
import proofs.«114631_g5153960755898_cont_9to1_m_245_26_alg».proof.Proof.Ideal.Shift
import Idealize.ShloMosaic.Lib.ValueIdx
import Idealize.ShloMosaic.Lib.Pipeline.Value
import Idealize.ShloMosaic.PureOps.Ideal.Laws

set_option maxRecDepth 16384

noncomputable section

namespace Cert.KernelIdeal.Exact

open Cert.KernelIdeal Cert.KernelIdeal.Gen
open Idealize.ShloMosaic Idealize.ShloMosaic.TcCoe ValueIdx

/-- The stored table at `(k, n)` is the table block at `(n, k)`. -/
theorem table_apply {F : FTy → Type} [FloatOps F] (v : Vec F S16x1000 .f32) (k : Fin 1000) (n : Fin 16) :
    k0_pay1 v (ix2 k n) = v (ix2 n k) := by
  unfold k0_pay1
  rw [shapeCast_self, shapeCast_self]
  exact transpose_apply [1, 0] v _ (ix2 k n) (ix2 n k) (fun b => by
    match b with
    | ⟨0, _⟩ => rfl
    | ⟨1, _⟩ => rfl)

theorem lhs_row (i : S16x1024.Idx) (q : dot_S1000x16_S1000x1024_S16x1024_0_0_1_1_n_n.contr.Idx) : (dot_S1000x16_S1000x1024_S16x1024_0_0_1_1_n_n.lhsIdx i q 0).val = (q ⟨0, by decide⟩).val :=
  dot_S1000x16_S1000x1024_S16x1024_0_0_1_1_n_n.lhsIdx_val_of_single rfl i q
theorem lhs_col (i : S16x1024.Idx) (q : dot_S1000x16_S1000x1024_S16x1024_0_0_1_1_n_n.contr.Idx) : (dot_S1000x16_S1000x1024_S16x1024_0_0_1_1_n_n.lhsIdx i q 1).val = (i 0).val := by
  unfold DotDims.lhsIdx
  rw [dif_neg (show ¬(1 : Fin S1000x16.rank) ∈ dot_S1000x16_S1000x1024_S16x1024_0_0_1_1_n_n.lhsBatch by decide), dif_pos (show (1 : Fin S1000x16.rank) ∈ dot_S1000x16_S1000x1024_S16x1024_0_0_1_1_n_n.lhsNonContracting by decide)]
  rfl
theorem rhs_row (i : S16x1024.Idx) (q : dot_S1000x16_S1000x1024_S16x1024_0_0_1_1_n_n.contr.Idx) : (dot_S1000x16_S1000x1024_S16x1024_0_0_1_1_n_n.rhsIdx i q 0).val = (q ⟨0, by decide⟩).val :=
  dot_S1000x16_S1000x1024_S16x1024_0_0_1_1_n_n.rhsIdx_val_of_single rfl i q
theorem rhs_col (i : S16x1024.Idx) (q : dot_S1000x16_S1000x1024_S16x1024_0_0_1_1_n_n.contr.Idx) : (dot_S1000x16_S1000x1024_S16x1024_0_0_1_1_n_n.rhsIdx i q 1).val = (i 1).val := by
  unfold DotDims.rhsIdx
  rw [dif_neg (show ¬(1 : Fin S1000x1024.rank) ∈ dot_S1000x16_S1000x1024_S16x1024_0_0_1_1_n_n.rhsBatch by decide), dif_pos (show (1 : Fin S1000x1024.rank) ∈ dot_S1000x16_S1000x1024_S16x1024_0_0_1_1_n_n.rhsNonContracting by decide)]
  rfl

/-- The product at `(n, q)`: the sum over the rows `k` of the table's `(k, n)` times the converted block's `(k, q)`. -/
theorem product_apply (a : Vec Ideal S1000x1024 .i32) (b : Vec Ideal S1000x16 .f32) (n : Fin 16) (q : Fin 1024) :
    k0_pay2 (F := Ideal) a b (ix2 n q) = ∑ k : Fin 1000, b (ix2 k n) * (FloatOps.sitofp (F := Ideal) .f32 (a (ix2 k q)) : EReal) := by
  unfold k0_pay2
  rw [shapeCast_self]
  simp only [matmul]
  rw [Ideal.matmul_constant_zero_apply, ← Equiv.sum_comp (ValueIdx.contrEquiv1 dot_S1000x16_S1000x1024_S16x1024_0_0_1_1_n_n 1000 rfl rfl).symm]
  refine Finset.sum_congr rfl fun k _ => ?_
  have hk := ValueIdx.contrEquiv1_symm_val dot_S1000x16_S1000x1024_S16x1024_0_0_1_1_n_n 1000 rfl rfl k
  have el : dot_S1000x16_S1000x1024_S16x1024_0_0_1_1_n_n.lhsIdx (ix2 n q) ((ValueIdx.contrEquiv1 dot_S1000x16_S1000x1024_S16x1024_0_0_1_1_n_n 1000 rfl rfl).symm k) = ix2 k n := funext fun d => Fin.ext (by
    match d with
    | ⟨0, _⟩ => exact (lhs_row _ _).trans hk
    | ⟨1, _⟩ => exact lhs_col _ _)
  have er : dot_S1000x16_S1000x1024_S16x1024_0_0_1_1_n_n.rhsIdx (ix2 n q) ((ValueIdx.contrEquiv1 dot_S1000x16_S1000x1024_S16x1024_0_0_1_1_n_n 1000 rfl rfl).symm k) = ix2 k q := funext fun d => Fin.ext (by
    match d with
    | ⟨0, _⟩ => exact (rhs_row _ _).trans hk
    | ⟨1, _⟩ => exact rhs_col _ _)
  rw [el, er]
  rfl

end Cert.KernelIdeal.Exact
end
-- ==== Proof.Spec.lean ====
/-
  The one number both programs compute, over the extended reals.

  For an integer matrix `A` (16384 × 1000) and a table `E` (1000 × 16), `rowDot A E J n` is the entry `(J, n)` of
  `float(A) · E`: the sum over the 1000 columns `k` of `E (k, n) · float (A (J, k))`. Both programs return, at
  `(j, n)`, this number at row `J = j + 1`: the product without its first row.
-/
import Idealize.ShloMosaic.PureOps.Ideal
import Idealize.ShloMosaic.Lib.ValueIdx

noncomputable section

namespace Cert.Spec

open Idealize.ShloMosaic ValueIdx

/-- Entry `(J, n)` of `float(A) · E`. -/
def rowDot (A : (⟨2, ![16384, 1000]⟩ : Shape).Idx → Elt Ideal .i32) (E : (⟨2, ![1000, 16]⟩ : Shape).Idx → Elt Ideal .f32)
    (J : Fin 16384) (n : Fin 16) : EReal :=
  ∑ k : Fin 1000, E (ix2 k n) * (FloatOps.sitofp (F := Ideal) .f32 (A (ix2 J k)) : EReal)

end Cert.Spec
end
-- ==== Proof.Ideal.Blocks.lean ====
/-
  The kernel's product, entry by entry, in terms of the program's two arguments.

  The region finds the transposes of the arguments: `Aᵗ` (1000 × 16384) and `Eᵗ` (16 × 1000). Step `t` of the grid
  (`t = 0 … 15`) works on the output's block `15 - t` of 1024 columns: the half block it reads is `Aᵗ`'s columns
  `(15 - t) · 1024 + q`, `q < 1024`, so its entry `(k, q)` is `A ((15 - t) · 1024 + q, k)`; the table the first step
  stores is `E` itself. Hence the step's product at `(n, q)` is `rowDot A E ((15 - t) · 1024 + q) n`.
-/
import proofs.«114631_g5153960755898_cont_9to1_m_245_26_alg».proof.Proof.Ideal.Carry
import proofs.«114631_g5153960755898_cont_9to1_m_245_26_alg».proof.Proof.Ideal.Product
import proofs.«114631_g5153960755898_cont_9to1_m_245_26_alg».proof.Proof.Spec
import Idealize.ShloMosaic.Lib.StableHlo.Run

set_option maxRecDepth 16384

noncomputable section

namespace Cert.KernelIdeal.Exact

open Cert.KernelIdeal Cert.KernelIdeal.Gen Cert.KernelIdeal.Body
open Idealize.ShloMosaic Idealize.ShloMosaic.TcCoe Idealize.SL.Sem ValueIdx

variable (m : (ℓ : Loc nD τ sig) → Buf (Elt Ideal) ℓ)

/-- The first argument as launched, on core `c`. -/
abbrev argA (c : Dev nD) : S16384x1000.Idx → Elt Ideal .i32 := m ((c : Thread nD τ).loc main_arg0)
/-- The second. -/
abbrev argE (c : Dev nD) : S1000x16.Idx → Elt Ideal .f32 := m ((c : Thread nD τ).loc main_arg1)

/-- The region finds the first operand's array at the transpose of the first argument, -/
theorem found_A (c : Dev nD) :
    (V m c main_v0 : S1000x16384.Idx → Elt Ideal .i32) = transpose S1000x16384 [1, 0] (argA m c) transposes_S16384x1000_S1000x16384_1_0 := by
  show StableHlo.after hostOps0 (fun b => m (c, b)) (Proc.devRef .tc main_v0) = _
  after_results

/-- and the second's at the transpose of the second. -/
theorem found_E (c : Dev nD) :
    (V m c main_v1 : S16x1000.Idx → Elt Ideal .f32) = transpose S16x1000 [1, 0] (argE m c) transposes_S1000x16_S16x1000_1_0 := by
  show StableHlo.after hostOps0 (fun b => m (c, b)) (Proc.devRef .tc main_v1) = _
  after_results

/-- The printed index maps and the clipped block sizes over the grid: step `t` is at output block `15 - t`, whose
    columns the half block read covers; only the block visited first is cut, to 1023 columns. -/
theorem grid_facts : ∀ t : Fin cfg0.N,
    win0_2.index t (0 : Fin 2) = 0 ∧ win0_2.index t (1 : Fin 2) = 15 - t.val
    ∧ win0_0.index t (0 : Fin 2) = 0 ∧ win0_0.index t (1 : Fin 2) * 2048 + k0_off1 (grid0.coords t) 1 = (15 - t.val) * 1024
    ∧ k0_off1 (grid0.coords t) 0 = 0
    ∧ win0_1.index t (0 : Fin 2) = 0 ∧ win0_1.index t (1 : Fin 2) = 0
    ∧ win0_2.xsize (grid0.coords t) 0 = 16 ∧ win0_2.xsize (grid0.coords t) 1 = (if t.val = 0 then 1023 else 1024) :=
  (by decide +kernel : ∀ t : Fin grid0.N, _)

/-- The half block step `t` reads, entry by entry. -/
theorem half_apply (c : Dev nD) (t : Fin cfg0.N) (k : Fin 1000) (q : Fin 1024) :
    half m c t (ix2 k q)
      = argA m c (ix2 (⟨(15 - t.val) * 1024 + q.val, by have := t.isLt; have : cfg0.N = 16 := N_0; omega⟩ : Fin 16384) k) := by
  obtain ⟨-, -, e0, e1, e2, -⟩ := grid_facts t
  show V m c main_v0 (((cfg0.win 0).blk t).view.emb ((rX (grid0.coords t)).emb (ix2 k q))) = _
  rw [found_A]
  exact transpose_apply [1, 0] _ _ _ _ (fun b => by
    match b with
    | ⟨0, _⟩ =>
      show k.val = win0_0.index t (0 : Fin 2) * 1000 + 1 * (k0_off1 (grid0.coords t) 0 + 1 * k.val)
      omega
    | ⟨1, _⟩ =>
      show (15 - t.val) * 1024 + q.val = win0_0.index t (1 : Fin 2) * 2048 + 1 * (k0_off1 (grid0.coords t) 1 + 1 * q.val)
      omega)

/-- The table the first step stores is the second argument. -/
theorem tab_apply (c : Dev nD) (k : Fin 1000) (n : Fin 16) : tab m c (ix2 k n) = argE m c (ix2 k n) := by
  obtain ⟨-, -, -, -, -, e0, e1, -⟩ := grid_facts t0_0
  unfold tab
  rw [table_apply]
  show V m c main_v1 (((cfg0.win 1).blk t0_0).view.emb (ix2 n k)) = _
  rw [found_E]
  exact transpose_apply [1, 0] _ _ _ _ (fun b => by
    match b with
    | ⟨0, _⟩ =>
      show n.val = win0_1.index t0_0 (0 : Fin 2) * 16 + 1 * n.val
      omega
    | ⟨1, _⟩ =>
      show k.val = win0_1.index t0_0 (1 : Fin 2) * 1000 + 1 * k.val
      omega)

/-- Step `t`'s product at `(n, q)` is the entry `((15 - t) · 1024 + q, n)` of `float(A) · E`. -/
theorem step_product (c : Dev nD) (t : Fin cfg0.N) (n : Fin 16) (q : Fin 1024) :
    k0_pay2 (F := Ideal) (half m c t) (tab m c) (ix2 n q)
      = Cert.Spec.rowDot (argA m c) (argE m c)
          (⟨(15 - t.val) * 1024 + q.val, by have := t.isLt; have : cfg0.N = 16 := N_0; omega⟩ : Fin 16384) n := by
  rw [product_apply]
  unfold Cert.Spec.rowDot
  exact Finset.sum_congr rfl fun k _ => by rw [tab_apply, half_apply]

end Cert.KernelIdeal.Exact
end
-- ==== Proof.Ideal.Array.lean ====
/-
  The output array after the sixteen write-backs, and the program's result.

  Write `P = float(A) · E` (16384 × 16). The output array `O` is 16 × 16383, and the claim is
  `O (n, j) = P (j + 1, n)` — the product transposed, its first row dropped.

  Step `t` writes back block `15 - t`: the columns `j = (15 - t) · 1024 + q` of `O`, `q < 1024` (`q < 1023` for the
  block visited first, which ends at the array's end). For `q < 1023` it writes the step's product at column `q + 1`,
  which is `P ((15 - t) · 1024 + q + 1, n)`. For `q = 1023` it writes the column kept by the step before, column `0`
  of that step's product: `P ((15 - (t - 1)) · 1024, n)`, and `(16 - t) · 1024 = (15 - t) · 1024 + 1023 + 1`.
  Every column `j < 16383` lies in the block `j / 1024`, so the sixteen blocks cover `O`.
  The program's result is `O` transposed by the host.
-/
import proofs.«114631_g5153960755898_cont_9to1_m_245_26_alg».proof.Proof.Ideal.Blocks

set_option maxRecDepth 16384

noncomputable section

namespace Cert.KernelIdeal.Exact

open Cert.KernelIdeal Cert.KernelIdeal.Gen Cert.KernelIdeal.Body
open Idealize.ShloMosaic Idealize.ShloMosaic.TcCoe Idealize.SL.Sem ValueIdx

variable (m : (ℓ : Loc nD τ sig) → Buf (Elt Ideal) ℓ) (ρ : Dev nD → PrngReg)

/-- `rowDot` depends on its two indices through their values only. -/
theorem rowDot_congr (A : (⟨2, ![16384, 1000]⟩ : Shape).Idx → Elt Ideal .i32) (E : (⟨2, ![1000, 16]⟩ : Shape).Idx → Elt Ideal .f32)
    {J J' : Fin 16384} {n n' : Fin 16} (h1 : J.val = J'.val) (h2 : n.val = n'.val) :
    Cert.Spec.rowDot A E J n = Cert.Spec.rowDot A E J' n' := by
  obtain rfl := Fin.ext h1; obtain rfl := Fin.ext h2; rfl

/-- What the output array ends holding: at `(n, j)`, entry `(j + 1, n)` of `float(A) · E`. -/
def outT (c : Dev nD) : S16x16383.Idx → Elt Ideal .f32 := fun i =>
  Cert.Spec.rowDot (argA m c) (argE m c) (⟨(i 1).val + 1, by have := idx2_lt1 i; omega⟩ : Fin 16384) (⟨(i 0).val, idx2_lt0 i⟩ : Fin 16)

/-- What step `t` writes back is block `15 - t` of `outT`. -/
theorem flushed_eq (c : Dev nD) (t : Fin cfg0.N) :
    (dats m 0 c).flushed 2 t = ((cfg0.win 2).blk t).view.read (Elt Ideal) (outT m c) := by
  obtain ⟨i0, i1, -, -, -, -, -, x0, x1⟩ := grid_facts t
  show (cfg0.win 2).cut (grid0.coords t) ((dats m 0 c).after 2 t) = _
  rw [after2]
  funext j
  show stored m c t (win0_2.xinj (grid0.coords t) j) = outT m c (((cfg0.win 2).blk t).view.emb j)
  have ht : t.val < 16 := lt_of_lt_of_eq t.isLt N_0
  have hj0 : (j 0).val < 16 := lt_of_lt_of_eq (j 0).isLt x0
  have hj1 : (j 1).val < (if t.val = 0 then 1023 else 1024) := lt_of_lt_of_eq (j 1).isLt x1
  have hj1' : (j 1).val < 1024 := by split at hj1 <;> omega
  have eL : (win0_2.xinj (grid0.coords t) j : S16x1024.Idx) = ix2 (⟨(j 0).val, hj0⟩ : Fin 16) (⟨(j 1).val, hj1'⟩ : Fin 1024) :=
    funext fun a => Fin.ext (by
      match a with
      | ⟨0, _⟩ => rfl
      | ⟨1, _⟩ => rfl)
  rw [eL]
  unfold outT
  by_cases hq : (j 1).val < 1023
  · unfold stored
    rw [stored_left _ _ _ _ _ hq, step_product]
    refine rowDot_congr _ _ ?_ ?_
    · show (15 - t.val) * 1024 + ((j 1).val + 1) = win0_2.index t (1 : Fin 2) * 1024 + 1 * (j 1).val + 1
      omega
    · show (j 0).val = win0_2.index t (0 : Fin 2) * 16 + 1 * (j 0).val
      omega
  · have htne : t.val ≠ 0 := by intro h; rw [if_pos h] at hj1; omega
    rw [stored_pos m c t htne, stored_last _ _ _ _ _ (by show (j 1).val = 1023; omega)]
    unfold colAfter
    rw [kept_col, step_product]
    refine rowDot_congr _ _ ?_ ?_
    · show (15 - (t.val - 1)) * 1024 + 0 = win0_2.index t (1 : Fin 2) * 1024 + 1 * (j 1).val + 1
      omega
    · show (j 0).val = win0_2.index t (0 : Fin 2) * 16 + 1 * (j 0).val
      omega

/-- An index of the output array is in step `t`'s block iff each coordinate is in the block's range inside the array. -/
theorem mem_blk (t : Fin cfg0.N) (i : S16x16383.Idx) :
    i ∈ ((cfg0.win 2).blk t).view.set ↔ ∀ a : Fin 2, win0_2.index t a * S16x1024.size a ≤ (i a).val
      ∧ (i a).val < win0_2.index t a * S16x1024.size a + win0_2.xsize (grid0.coords t) a := by
  show i ∈ ((View.whole main_v2).slice (win0_2.rect t)).set ↔ _
  rw [View.set_slice_whole, Rect.mem_set_unit]
  exact Iff.rfl

/-- Every index of the output array is in the block of the step `15 - j / 1024`. -/
theorem covered (i : S16x16383.Idx) : ∃ t : Fin cfg0.N, (cfg0.win 2).flush t = true ∧ i ∈ ((cfg0.win 2).blk t).view.set := by
  have h0 : (i 0).val < 16 := idx2_lt0 i
  have h1 : (i 1).val < 16383 := idx2_lt1 i
  let t : Fin cfg0.N := ⟨15 - (i 1).val / 1024, by rw [show cfg0.N = 16 from N_0]; omega⟩
  obtain ⟨i0, i1, -, -, -, -, -, x0, x1⟩ := grid_facts t
  have tv : t.val = 15 - (i 1).val / 1024 := rfl
  refine ⟨t, flush0_2 t, (mem_blk t i).mpr fun a => ?_⟩
  match a with
  | ⟨0, _⟩ =>
    show win0_2.index t (0 : Fin 2) * 16 ≤ (i 0).val ∧ (i 0).val < win0_2.index t (0 : Fin 2) * 16 + win0_2.xsize (grid0.coords t) 0
    omega
  | ⟨1, _⟩ =>
    show win0_2.index t (1 : Fin 2) * 1024 ≤ (i 1).val ∧ (i 1).val < win0_2.index t (1 : Fin 2) * 1024 + win0_2.xsize (grid0.coords t) 1
    rw [x1, i1, tv]
    split <;> omega

/-- So the output array ends at `outT`. -/
theorem final (c : Dev nD) : (dats m 0 c).arrAt 2 cfg0.N = outT m c :=
  (dats m 0 c).arrAt_eq_of_cover 2 (outT m c) (fun t _ => flushed_eq m c t) covered

/-- What the program returns: at `(j, n)`, entry `(j + 1, n)` of `float(A) · E`. -/
def result (c : Dev nD) : S16383x16.Idx → Elt Ideal .f32 := fun i =>
  Cert.Spec.rowDot (argA m c) (argE m c) (⟨(i 0).val + 1, by have := idx2_lt0 i; omega⟩ : Fin 16384) (⟨(i 1).val, idx2_lt1 i⟩ : Fin 16)

/-- The host's transpose of the output array is `result`. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2) = outT m c :=
    (Pipeline.withArrays_arr spec0 launch0.win.arr_inj c _ _ 2).trans (final m c)
  rw [hw]
  funext i
  refine (transpose_apply [1, 0] (outT m c) _ i (ix2 (i 1) (i 0)) (fun b => by
    match b with
    | ⟨0, _⟩ => rfl
    | ⟨1, _⟩ => rfl)).trans ?_
  rfl

/-- The kernel's run, with its result named: every weakly fair execution terminates, without a fault, with the result
    at `result` and both arguments as launched. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Exact
end
-- ==== Proof.Reference.lean ====
/-
  The reference, entry by entry.

  The reference converts the integer matrix to floats, drops its first row and multiplies by the table on the
  host. At the exact reading its entry `(j, n)` is the sum over `k` of `float (A (j + 1, k)) · E (k, n)`, which is
  `rowDot A E (j + 1) n` with the factors of each term exchanged.
-/
import proofs.«114631_g5153960755898_cont_9to1_m_245_26_alg».proof.Proof.Gen.ReferenceIdeal.Read
import proofs.«114631_g5153960755898_cont_9to1_m_245_26_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic ValueIdx

/-- The reference's result at `(j, n)`. -/
theorem result_apply (A : (⟨S16384x1000, .i32⟩ : BufTy).Contents (Elt Ideal)) (E : (⟨S1000x16, .f32⟩ : BufTy).Contents (Elt Ideal))
    (j : Fin 16383) (n : Fin 16) :
    val_main_v2 (F := Ideal) A E (ix2 j n) = Cert.Spec.rowDot A E (⟨1 + j.val, by omega⟩ : Fin 16384) n := by
  rw [val_main_v2_apply]
  unfold Cert.Spec.rowDot
  refine Finset.sum_congr rfl fun k _ => ?_
  rw [val_main_v1_apply, val_main_v0_apply, mul_comm]
  have e1 : ridx_main_v2 (ix2 j n) k = ix2 k n := funext fun a => Fin.ext (by
    match a with
    | ⟨0, _⟩ => rfl
    | ⟨1, _⟩ => rfl)
  have e0 : idx_main_v1 (lidx_main_v2 (ix2 j n) k) = ix2 (⟨1 + j.val, by omega⟩ : Fin 16384) k := funext fun a => Fin.ext (by
    match a with
    | ⟨0, _⟩ => rfl
    | ⟨1, _⟩ => rfl)
  rw [e1, e0]

end Cert.ReferenceIdeal.RefValue
end
-- ==== Proof.lean ====
/-
  The certificate: a kernel computing `(float(A) · E)` without its first row, against the plain host computation.

  `A` is an integer matrix (16384 × 1000) and `E` a table (1000 × 16). The reference converts `A` to floats, drops
  its first row and multiplies by `E`. The kernel works on the transposes: a grid of sixteen steps walks the
  16383 result rows in blocks of 1024 from the last block to the first; each step multiplies the table by a half
  block of `Aᵗ` on the matrix unit, and shifts the product by one column — the first column of each block is kept
  in a scratch buffer and appended, by the next step, to the block before — which is how the first row is dropped.
  The column appended at the first step has not been written by anyone, but it falls past the array's end and is
  never written back.

  Over the extended reals both results are, at `(j, n)`, the sum over `k` of `E (k, n) · float (A (j + 1, k))`
  (`Spec.rowDot`): the reference with the two factors of each term in the other order. The law joining the two
  sides is the commutativity of the product, which holds for infinite values too, so the precondition is not used.

  The frames of the kernel (at the word-level reading and at the exact one) are proved once for any reading of the
  floats: the body's two runs, the contents of the scratch buffers between steps, the body's obligation to the
  pipeline, and the launch. The idealization rewrote no operation, so there is nothing to preserve.
-/
import proofs.«114631_g5153960755898_cont_9to1_m_245_26_alg».proof.Defs
import proofs.«114631_g5153960755898_cont_9to1_m_245_26_alg».proof.Proof.Gen.Kernel
import proofs.«114631_g5153960755898_cont_9to1_m_245_26_alg».proof.Proof.Gen.KernelIdeal
import proofs.«114631_g5153960755898_cont_9to1_m_245_26_alg».proof.Proof.Gen.ReferenceIdeal
import proofs.«114631_g5153960755898_cont_9to1_m_245_26_alg».proof.Proof.Gen.Pre_finite_inputs
import proofs.«114631_g5153960755898_cont_9to1_m_245_26_alg».proof.Proof.Gen.ReferenceIdeal.Run
import proofs.«114631_g5153960755898_cont_9to1_m_245_26_alg».proof.Proof.Bits.Carry
import proofs.«114631_g5153960755898_cont_9to1_m_245_26_alg».proof.Proof.Ideal.Array
import proofs.«114631_g5153960755898_cont_9to1_m_245_26_alg».proof.Proof.Reference
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel :=
  fun m ρ _ => Cert.Kernel.Body.frame (F := Bits) m ρ

/-- So does the kernel at the exact reading. -/
theorem frame_kernel_ideal : Cert.frame_KernelIdeal :=
  fun m ρ _ => Cert.KernelIdeal.Body.frame (F := Ideal) m ρ

/-- The reference runs and leaves its arguments as launched: its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- From memories that agree on the arguments both programs end with the same result: at `(j, n)` the entry
    `(j + 1, n)` of `float(A) · E`, the reference's terms with their factors exchanged. -/
theorem algebraic : Cert.algebraic_KernelIdeal_ReferenceIdeal := by
  intro m ρ m' ρ' _ hagree
  refine ⟨fun c => Cert.KernelIdeal.Exact.result m c, Cert.KernelIdeal.Exact.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, (hagree c).1, (hagree c).2]
  funext i
  obtain ⟨j, n, rfl⟩ : ∃ (j : Fin 16383) (n : Fin 16), i = ValueIdx.ix2 j n := ⟨i 0, i 1, ValueIdx.eq_ix2 i⟩
  rw [Cert.ReferenceIdeal.RefValue.result_apply]
  unfold Cert.KernelIdeal.Exact.result
  exact Cert.KernelIdeal.Exact.rowDot_congr _ _ (Nat.add_comm 1 j.val) rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
